-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x128 : S_.BroadcastsInDim S256x128 (![] : Fin 0 → Fin S256x128.rank)
  reducesTo_S256x128_S_d0_1 : S256x128.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  main_v38

def fn_part1 {F : FTy → Type} [FloatOps F] (main_arg4 : FVec F S32768x256 .f32) (main_arg5 : FVec F S256x128 .f32) (main_arg6 : FVec F S256x256 .f32) (main_arg7 : FVec F S256x256 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S32768x128 .f32) (main_arg1 : FVec F S32768x256 .f32) (main_arg2 : FVec F S32768x256 .f32) (main_arg3 : FVec F S32768x256 .f32) (main_arg4 : FVec F S32768x256 .f32) (main_arg5 : FVec F S256x128 .f32) (main_arg6 : FVec F S256x256 .f32) (main_arg7 : FVec F S256x256 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_arg6 main_arg7 main_v13 main_v16
-- ==== Kernel.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S128x256 : Shape := ⟨2, ![128, 256]⟩
abbrev S384x256 : Shape := ⟨2, ![384, 256]⟩
abbrev S1024x128 : Shape := ⟨2, ![1024, 128]⟩
abbrev S1024x256 : Shape := ⟨2, ![1024, 256]⟩
abbrev S1024x384 : Shape := ⟨2, ![1024, 384]⟩

abbrev nBuf : Space → Nat
  | .hbm => 18
  | .vmem => 21
  | .smem => 0
  | _ => 0

abbrev bufTy : (tb : Table) → Fin (tcTables nBuf tb) → BufTy
  | .hbm, ⟨0, _⟩ => ⟨S32768x128, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S256x128, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S128x256, .f32⟩
  | .hbm, ⟨10, _⟩ => ⟨S128x256, .bf16⟩
  | .hbm, ⟨11, _⟩ => ⟨S256x256, .f32⟩
  | .hbm, ⟨12, _⟩ => ⟨S256x256, .bf16⟩
  | .hbm, ⟨13, _⟩ => ⟨S384x256, .bf16⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .local _ .vmem, ⟨0, _⟩ => ⟨S1024x128, .f32⟩
  | .local _ .vmem, ⟨1, _⟩ => ⟨S1024x128, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S256x256, .f32⟩
  | .local _ .vmem, ⟨11, _⟩ => ⟨S384x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x384, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x256_S256x256_1_0 : S256x256.Transposes [1, 0] S256x256
  transposes_S256x128_S128x256_1_0 : S256x128.Transposes [1, 0] S128x256
  bitsLt_bf16_f32 : FTy.bits .bf16 < FTy.bits .f32
  concatenates_S128x256_S256x256_S384x256_d0 : Shape.Concatenates [S128x256, S256x256] S384x256 0
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x384_S1024x128_0_0 : ∀ a, (![0, 0] : Fin 2 → Nat) a + S1024x128.size a ≤ S1024x384.size a
  shapeCasts_S1024x128_S1024x128 : S1024x128.ShapeCasts S1024x128
  packedbf16_S1024x384_S1024x128_0_0 : (Rect.unit (s := S1024x384) ![0, 0] S1024x128.size inb_S1024x384_S1024x128_0_0).PackedRows (EltTy.packing .bf16)
  inb_S1024x384_S1024x256_0_128 : ∀ a, (![0, 128] : Fin 2 → Nat) a + S1024x256.size a ≤ S1024x384.size a
  shapeCasts_S1024x256_S1024x256 : S1024x256.ShapeCasts S1024x256
  packedbf16_S1024x384_S1024x256_0_128 : (Rect.unit (s := S1024x384) ![0, 128] S1024x256.size inb_S1024x384_S1024x256_0_128).PackedRows (EltTy.packing .bf16)
  inb_S1024x384_S1024x384_0_0 : ∀ a, (![0, 0] : Fin 2 → Nat) a + S1024x384.size a ≤ S1024x384.size a
  h_S1024x384 : 0 < S1024x384.numel
  inb_S384x256_S384x256_0_0 : ∀ a, (![0, 0] : Fin 2 → Nat) a + S384x256.size a ≤ S384x256.size a
  h_S384x256 : 0 < S384x256.numel
  shapeCasts_S384x256_S384x256 : S384x256.ShapeCasts S384x256
  natLt_1_32 : 1 < 32
  dot_S1024x256_S256x256_S1024x256_1_0_0_1_n_n_wf : DotDims.WF S1024x256 S256x256 S1024x256 [1] [0] [0] [1] [] []
  dot_S1024x384_S384x256_S1024x256_1_0_0_1_n_n_wf : DotDims.WF S1024x384 S384x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S32768x256.size a
  hwx0_4 : ∀ i : grid0.Coords, EltTy.bits .f32 = 32 ∨ (Rect.block (s := S32768x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x256.size a ≤ S384x256.size a
  hwx0_6 : ∀ i : grid0.Coords, EltTy.bits .bf16 = 32 ∨ (Rect.block (s := S384x256) S384x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S32768x256.size a
  hwx0_7 : ∀ i : grid0.Coords, EltTy.bits .f32 = 32 ∨ (Rect.block (s := S32768x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S32768x256.size a
  hwx0_8 : ∀ i : grid0.Coords, EltTy.bits .f32 = 32 ∨ (Rect.block (s := S32768x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S32768x256.size a
  hwx0_9 : ∀ i : grid0.Coords, EltTy.bits .f32 = 32 ∨ (Rect.block (s := S32768x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S32768x256.size a
  hwx0_10 : ∀ i : grid0.Coords, EltTy.bits .f32 = 32 ∨ (Rect.block (s := S32768x256) S1024x256.size (cc0_transform_10 i) (hinb0_10 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S384x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S_ : Shape := ⟨0, ![]⟩
abbrev S128x256 : Shape := ⟨2, ![128, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S256x128, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S256x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S_, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .i1⟩
  | .hbm, ⟨29, _⟩ => ⟨S32768x256, .f32⟩
  | .hbm, ⟨30, _⟩ => ⟨S_, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S_, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S128x256, .f32⟩
  | .hbm, ⟨39, _⟩ => ⟨S32768x256, .f32⟩
  | .hbm, ⟨40, _⟩ => ⟨S32768x256, .f32⟩
  | .hbm, ⟨41, _⟩ => ⟨S256x256, .f32⟩
  | .hbm, ⟨42, _⟩ => ⟨S32768x256, .f32⟩
  | .hbm, ⟨43, _⟩ => ⟨S32768x256, .f32⟩
  | .hbm, ⟨44, _⟩ => ⟨S_, .f32⟩
  | .hbm, ⟨45, _⟩ => ⟨S32768x256, .f32⟩
  | .hbm, ⟨46, _⟩ => ⟨S32768x256, .i1⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S32768x256, .f32⟩
  | .hbm, ⟨54, _⟩ => ⟨S_, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S_, .f32⟩
  | .hbm, ⟨59, _⟩ => ⟨S32768x256, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S_, .f32⟩
  | .hbm, ⟨67, _⟩ => ⟨S32768x256, .f32⟩
  | .hbm, ⟨68, _⟩ => ⟨S32768x256, .f32⟩
  | .hbm, ⟨69, _⟩ => ⟨S32768x256, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  transposes_S256x256_S256x256_1_0 : S256x256.Transposes [1, 0] S256x256
  transposes_S256x128_S128x256_1_0 : S256x128.Transposes [1, 0] S128x256
  dot_S32768x256_S256x256_S32768x256_1_0_0_1_n_n_wf : DotDims.WF S32768x256 S256x256 S32768x256 [1] [0] [0] [1] [] []
  dot_S32768x128_S128x256_S32768x256_1_0_0_1_n_n_wf : DotDims.WF S32768x128 S128x256 S32768x256 [1] [0] [0] [1] [] []

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf

class Facts : Prop extends Facts₀ where

variable [Facts]
-- ==== Proof.LifStep.lean ====
/-
  One step of a leaky integrate-and-fire cell with a refractory counter, entry by entry, on the extended reals.

  For a batch row `b` and a unit `h`, with membrane potential `v`, synaptic current `i`, refractory counter `ρ`, the
  coupling `d = ∑ k, v (b, k) · g (h, k)` and the drive `∑ k, x (b, k) · wᵢ (h, k) + ∑ k, z (b, k) · wᵣ (h, k)`:
    decayed = v + (0.1 · ((0 − v) + i) + d)          the membrane after leak and coupling,
    spike   = [decayed − 1 > 0]                        the hard threshold,
    z'      = (1 − [ρ > 0]) · spike                    a refractory unit does not spike,
    v'      = (1 − [ρ > 0]) · ((1 − spike) · decayed + spike · 0) + [ρ > 0] · v,
    i'      = (i + (−0.2) · i) + drive,
    ρ'      = (1 − z') · max (ρ − [ρ > 0]) 0 + z' · 5.
  The float constants are kept as the binary words the programs spell; none is ever evaluated.
-/
import Idealize.ShloMosaic.PureOps.Ideal
import Idealize.ShloMosaic.Lib.ValueIdx

noncomputable section

open scoped BigOperators

namespace Cert.Lif

open Idealize.ShloMosaic Idealize.ShloMosaic.ValueIdx

/-- The constants of the step: 0, 1, the membrane rate 0.1, the synaptic rate −0.2, the refractory reset 5. -/
abbrev zero : EReal := Ideal.ofBits .f32 0x00000000#32
abbrev one : EReal := Ideal.ofBits .f32 0x3F800000#32
abbrev memRate : EReal := Ideal.ofBits .f32 0x3DCCCCCD#32
abbrev synRate : EReal := Ideal.ofBits .f32 0xBE4CCCCD#32
abbrev rhoReset : EReal := Ideal.ofBits .f32 0x40A00000#32

/-- The indicator of `x > 0`: the comparison's bit read as a number. -/
def fire (x : EReal) : EReal := (((Ideal.cmp .ogt x zero).toNat : ℝ) : EReal)

/-- The membrane potential after the leak, the input current and the coupling `d`. -/
def decayed (v i d : EReal) : EReal := v + (memRate * ((zero - v) + i) + d)

/-- The threshold crossing of the decayed membrane. -/
def spike (v i d : EReal) : EReal := fire (decayed v i d - one)

/-- The emitted spike: suppressed while the unit is refractory. -/
def zNext (v i d ρ : EReal) : EReal := (one - fire ρ) * spike v i d

/-- The new membrane potential: reset on a spike, held while refractory. -/
def vNext (v i d ρ : EReal) : EReal :=
  (one - fire ρ) * ((one - spike v i d) * decayed v i d + spike v i d * zero) + fire ρ * v

/-- The new synaptic current: decay plus the drive `u`. -/
def iNext (i u : EReal) : EReal := (i + synRate * i) + u

/-- The new refractory counter: counted down while positive, set to the reset value on an emitted spike. -/
def rhoNext (v i d ρ : EReal) : EReal :=
  (one - zNext v i d ρ) * max (ρ - fire ρ) zero + zNext v i d ρ * rhoReset

/-! ## The four result arrays as functions of the eight argument arrays -/

section
variable (x : (⟨2, ![32768, 128]⟩ : Shape).Idx → EReal) (z v i ρ : (⟨2, ![32768, 256]⟩ : Shape).Idx → EReal)
  (wi : (⟨2, ![256, 128]⟩ : Shape).Idx → EReal) (wr g : (⟨2, ![256, 256]⟩ : Shape).Idx → EReal)

/-- The coupling of row `b` into unit `h`: `∑ k, v (b, k) · g (h, k)`. -/
def coupling (b : Fin 32768) (h : Fin 256) : EReal := ∑ k : Fin 256, v (ix2 b k) * g (ix2 h k)

/-- The drive of row `b` into unit `h`: the input through `wᵢ` plus the previous spikes through `wᵣ`. -/
def drive (b : Fin 32768) (h : Fin 256) : EReal :=
  (∑ k : Fin 128, x (ix2 b k) * wi (ix2 h k)) + ∑ k : Fin 256, z (ix2 b k) * wr (ix2 h k)

def zArr : (⟨2, ![32768, 256]⟩ : Shape).Idx → EReal := fun j => zNext (v j) (i j) (coupling v g (j 0) (j 1)) (ρ j)
def vArr : (⟨2, ![32768, 256]⟩ : Shape).Idx → EReal := fun j => vNext (v j) (i j) (coupling v g (j 0) (j 1)) (ρ j)
def iArr : (⟨2, ![32768, 256]⟩ : Shape).Idx → EReal := fun j => iNext (i j) (drive x z wi wr (j 0) (j 1))
def rhoArr : (⟨2, ![32768, 256]⟩ : Shape).Idx → EReal := fun j => rhoNext (v j) (i j) (coupling v g (j 0) (j 1)) (ρ j)

end

/-! ## The comparison's bit as a number, in the two spellings the programs use -/

/-- A one-bit word widened to 32 bits and read as a signed integer is the bit. -/
theorem toInt_setWidth_bit (b : BitVec 1) : (((b.setWidth 32).toInt : ℝ) : EReal) = ((b.toNat : ℝ) : EReal) := by
  have h : (b.setWidth 32).toInt = (b.toNat : ℤ) := by revert b; decide
  rw [h, Int.cast_natCast]

end Cert.Lif

end
-- ==== Proof.RefLif.lean ====
/-
  The reference's four results are the cell's step, entry by entry.

  Each result of the reference is a composition of entrywise operations on whole arrays, three matrix products
  against transposed weights, and the comparison bits converted to numbers. Read at the entry `(b, h)`, every
  entrywise operation is the scalar operation on the operands' entries; a product `a · wᵀ` is `∑ k, a (b, k) · w (h, k)`;
  and a bit converted to a float is the bit as a number. That is the step's formula, term for term — except the new
  synaptic current, where the reference adds the two drive terms one after the other, `((i + (−0.2) · i) + A) + B`, and
  the step adds their sum: associativity of addition on the extended reals.
-/
import proofs.«127496_j40913858462199_2_alg».proof.Proof.Gen.ReferenceIdeal.Read
import proofs.«127496_j40913858462199_2_alg».proof.Proof.LifStep

noncomputable section

open scoped BigOperators

namespace Cert.ReferenceIdeal.RefValue

open Cert.ReferenceIdeal Cert.ReferenceIdeal.Read Idealize.ShloMosaic Idealize.ShloMosaic.ValueIdx Cert.Lif

/-! ## The products' operand indices at the entry `(b, h)` -/

theorem lrow256 (b : Fin 32768) (h k : Fin 256) : lidx_main_v6 (ix2 b h) k = ix2 b k :=
  funext fun a => Fin.ext (by match a with | ⟨0, _⟩ => rfl | ⟨1, _⟩ => rfl)

theorem rrow_g (b : Fin 32768) (h k : Fin 256) : idx_main_v5 (ridx_main_v6 (ix2 b h) k) = ix2 h k :=
  funext fun a => Fin.ext (by match a with | ⟨0, _⟩ => rfl | ⟨1, _⟩ => rfl)

theorem lrow128 (b : Fin 32768) (h : Fin 256) (k : Fin 128) : lidx_main_v24 (ix2 b h) k = ix2 b k :=
  funext fun a => Fin.ext (by match a with | ⟨0, _⟩ => rfl | ⟨1, _⟩ => rfl)

theorem rrow_wi (b : Fin 32768) (h : Fin 256) (k : Fin 128) : idx_main_v23 (ridx_main_v24 (ix2 b h) k) = ix2 h k :=
  funext fun a => Fin.ext (by match a with | ⟨0, _⟩ => rfl | ⟨1, _⟩ => rfl)

theorem lrow256' (b : Fin 32768) (h k : Fin 256) : lidx_main_v27 (ix2 b h) k = ix2 b k :=
  funext fun a => Fin.ext (by match a with | ⟨0, _⟩ => rfl | ⟨1, _⟩ => rfl)

theorem rrow_wr (b : Fin 32768) (h k : Fin 256) : idx_main_v26 (ridx_main_v27 (ix2 b h) k) = ix2 h k :=
  funext fun a => Fin.ext (by match a with | ⟨0, _⟩ => rfl | ⟨1, _⟩ => rfl)

/-- Every stage of the reference read at an entry, and the products' operand indices named by their coordinates. -/
local macro "read_entry" : tactic => `(tactic| simp only [val_main_cst_apply, val_main_v0_apply, val_main_v1_apply, val_main_v2_apply, val_main_cst_0_apply, val_main_v3_apply, val_main_v4_apply, val_main_v5_apply, val_main_v6_apply, val_main_v7_apply, val_main_v8_apply, val_main_cst_1_apply, val_main_v9_apply, val_main_v10_apply, val_main_v11_apply, val_main_cst_2_apply, val_main_v12_apply, val_main_v13_apply, val_main_cst_3_apply, val_main_v14_apply, val_main_v15_apply, val_main_v16_apply, val_main_cst_4_apply, val_main_v17_apply, val_main_v18_apply, val_main_v19_apply, val_main_cst_5_apply, val_main_v20_apply, val_main_v21_apply, val_main_v22_apply, val_main_v23_apply, val_main_v24_apply, val_main_v25_apply, val_main_v26_apply, val_main_v27_apply, val_main_v28_apply, val_main_cst_6_apply, val_main_v29_apply, val_main_v30_apply, val_main_v31_apply, val_main_cst_7_apply, val_main_v32_apply, val_main_v33_apply, val_main_v34_apply, val_main_v35_apply, val_main_v36_apply, val_main_cst_8_apply, val_main_v37_apply, val_main_v38_apply, val_main_v39_apply, val_main_cst_9_apply, val_main_v40_apply, val_main_v41_apply, val_main_v42_apply, val_main_call0_cst_apply, val_main_call0_v0_apply, val_main_v43_apply, val_main_v44_apply, val_main_cst_10_apply, val_main_v45_apply, val_main_v46_apply, val_main_v47_apply,
  lrow256, rrow_g, lrow128, rrow_wi, lrow256', rrow_wr])

section
variable (x : (⟨S32768x128, .f32⟩ : BufTy).Contents (Elt Ideal)) (z v i ρ : (⟨S32768x256, .f32⟩ : BufTy).Contents (Elt Ideal))
  (wi : (⟨S256x128, .f32⟩ : BufTy).Contents (Elt Ideal)) (wr g : (⟨S256x256, .f32⟩ : BufTy).Contents (Elt Ideal))

/-- The emitted spikes. -/
theorem spikes_eq : val_main_v39 (F := Ideal) v i ρ g = zArr v i ρ g := by
  funext j
  obtain ⟨b, h, rfl⟩ : ∃ (b : Fin 32768) (h : Fin 256), j = ix2 b h := ⟨j 0, j 1, eq_ix2 j⟩
  read_entry
  rfl

/-- The new membrane potential. -/
theorem membrane_eq : val_main_v36 (F := Ideal) v i ρ g = vArr v i ρ g := by
  funext j
  obtain ⟨b, h, rfl⟩ : ∃ (b : Fin 32768) (h : Fin 256), j = ix2 b h := ⟨j 0, j 1, eq_ix2 j⟩
  read_entry
  rfl

/-- The new synaptic current: the reference's two drive terms added one after the other are their sum added once. -/
theorem current_eq : val_main_v28 (F := Ideal) x z i wi wr = iArr x z i wi wr := by
  funext j
  obtain ⟨b, h, rfl⟩ : ∃ (b : Fin 32768) (h : Fin 256), j = ix2 b h := ⟨j 0, j 1, eq_ix2 j⟩
  read_entry
  exact add_assoc _ _ _

/-- The new refractory counter. -/
theorem refractory_eq : val_main_v47 (F := Ideal) v i ρ g = rhoArr v i ρ g := by
  funext j
  obtain ⟨b, h, rfl⟩ : ∃ (b : Fin 32768) (h : Fin 256), j = ix2 b h := ⟨j 0, j 1, eq_ix2 j⟩
  read_entry
  rfl

end

end Cert.ReferenceIdeal.RefValue

end
-- ==== Proof.KernelPieces.lean ====
/-
  What one grid step leaves in each of the four result blocks, as the body's arithmetic of the blocks it loaded.

  The body loads the five row blocks (input, spikes, membrane, current, refractory counter) and the two resident
  weight blocks, writes the input block and the spikes block side by side into a row buffer of 384 columns, reads that
  buffer back whole, and stores four results, each once over its whole block. So each result block is one store's value:
  the store's arithmetic applied to the loaded blocks, the buffer read back being the two blocks side by side.
-/
import proofs.«127496_j40913858462199_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem origin : (![0, 0] : Fin 2 → Nat) = fun _ => 0 := funext fun a => by fin_cases a <;> rfl

/-- The row buffer read back whole after the two stores: the narrowed spikes block on columns 128 … 383 (stored last),
    the narrowed input block on columns 0 … 127. -/
def joined (x0 : Vec F S1024x128 .f32) (x1 : Vec F S1024x256 .f32) : Vec F S1024x384 .bf16 := fun j =>
  View.canon
    [(⟨Rect.unit ![0, 128] S1024x256.size inb_S1024x384_S1024x256_0_128, k0_pay9 x1⟩ : View.Piece (Elt F) S1024x384 .bf16),
      ⟨Rect.unit ![0, 0] S1024x128.size inb_S1024x384_S1024x128_0_0, k0_pay8 x0⟩]
    ((Rect.unit ![0, 0] S1024x384.size inb_S1024x384_S1024x384_0_0).toLoadRect.idx j)

/-- The coupling product, the leak term and the rate the second half of the body takes from the first. -/
abbrev coupled (x2 : Vec F S1024x256 .f32) (x5 : Vec F S256x256 .f32) : FVec F S1024x256 .f32 := k0_pay7 x2 x5
abbrev leak (x2 x3 : Vec F S1024x256 .f32) : FVec F S1024x256 .f32 := k0_pay11 x2 x3

/-- The spikes block. -/
theorem spikes_block (c : Dev nD) (i : grid0.Coords) (arg1 : Memref sig .tc .vmem S1024x128 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S384x256 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x384 .bf16) (harg12 : arg12.IsWhole)
    (x0 : Vec F S1024x128 .f32) (x1 : Vec F S1024x256 .f32) (x2 : Vec F S1024x256 .f32) (x3 : Vec F S1024x256 .f32) (x4 : Vec F S1024x256 .f32) (x5 : Vec F S256x256 .f32) (x6 : Vec F S384x256 .bf16) :
    out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay5 x2 x4 (coupled x2 x5) (leak x2 x3) k0_pay12 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_run_names
  rw [View.canon_unit_zero origin]
  simp only [View.readAt_eq_ld, harg1.read_unread, harg2.read_unread, harg3.read_unread, harg4.read_unread, harg5.read_unread,
    harg6.read_unread, harg7.read_unread, View.ld_unit_zero (S := S1024x128) origin, View.ld_unit_zero (S := S1024x256) origin,
    View.ld_unit_zero (S := S256x256) origin, View.ld_unit_zero (S := S384x256) origin]

/-- The membrane block. -/
theorem membrane_block (c : Dev nD) (i : grid0.Coords) (arg1 : Memref sig .tc .vmem S1024x128 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S384x256 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x384 .bf16) (harg12 : arg12.IsWhole)
    (x0 : Vec F S1024x128 .f32) (x1 : Vec F S1024x256 .f32) (x2 : Vec F S1024x256 .f32) (x3 : Vec F S1024x256 .f32) (x4 : Vec F S1024x256 .f32) (x5 : Vec F S256x256 .f32) (x6 : Vec F S384x256 .bf16) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay4 x2 x4 (coupled x2 x5) (leak x2 x3) k0_pay12 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_run_names
  rw [View.canon_unit_zero origin]
  simp only [View.readAt_eq_ld, harg1.read_unread, harg2.read_unread, harg3.read_unread, harg4.read_unread, harg5.read_unread,
    harg6.read_unread, harg7.read_unread, View.ld_unit_zero (S := S1024x128) origin, View.ld_unit_zero (S := S1024x256) origin,
    View.ld_unit_zero (S := S256x256) origin, View.ld_unit_zero (S := S384x256) origin]

/-- The current block: the decayed current plus the product of the row buffer with the stacked weights. -/
theorem current_block (c : Dev nD) (i : grid0.Coords) (arg1 : Memref sig .tc .vmem S1024x128 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S384x256 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x384 .bf16) (harg12 : arg12.IsWhole)
    (x0 : Vec F S1024x128 .f32) (x1 : Vec F S1024x256 .f32) (x2 : Vec F S1024x256 .f32) (x3 : Vec F S1024x256 .f32) (x4 : Vec F S1024x256 .f32) (x5 : Vec F S256x256 .f32) (x6 : Vec F S384x256 .bf16) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay10 x3 (joined x0 x1) x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_run_names
  rw [View.canon_unit_zero origin]
  rw [View.readCov_eq_canon']
  simp only [View.readAt_eq_ld, harg1.read_unread, harg2.read_unread, harg3.read_unread, harg4.read_unread, harg5.read_unread,
    harg6.read_unread, harg7.read_unread, View.ld_unit_zero (S := S1024x128) origin, View.ld_unit_zero (S := S1024x256) origin,
    View.ld_unit_zero (S := S256x256) origin, View.ld_unit_zero (S := S384x256) origin]
  rfl

/-- The refractory block. -/
theorem refractory_block (c : Dev nD) (i : grid0.Coords) (arg1 : Memref sig .tc .vmem S1024x128 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S384x256 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x384 .bf16) (harg12 : arg12.IsWhole)
    (x0 : Vec F S1024x128 .f32) (x1 : Vec F S1024x256 .f32) (x2 : Vec F S1024x256 .f32) (x3 : Vec F S1024x256 .f32) (x4 : Vec F S1024x256 .f32) (x5 : Vec F S256x256 .f32) (x6 : Vec F S384x256 .bf16) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay6 x2 x4 (coupled x2 x5) (leak x2 x3) k0_pay12 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_run_names
  rw [View.canon_unit_zero origin]
  simp only [View.readAt_eq_ld, harg1.read_unread, harg2.read_unread, harg3.read_unread, harg4.read_unread, harg5.read_unread,
    harg6.read_unread, harg7.read_unread, View.ld_unit_zero (S := S1024x128) origin, View.ld_unit_zero (S := S1024x256) origin,
    View.ld_unit_zero (S := S256x256) origin, View.ld_unit_zero (S := S384x256) origin]

end Cert.KernelIdeal.Pieces

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.LibPieces.lean ====
/-
  Three small facts about arrays put together from pieces, read at an element.

  Two matrices stacked one above the other read, at `(n, j)`, the upper one when `n` is below its height and the lower one
  at `(n - a, j)` otherwise. A load of a matrix through a unit-stride rectangle reads, at `(p, q)`, the matrix at the
  rectangle's offsets plus `(p, q)`. A sum over `b + c` indices is the sum over the first `b` plus the sum over the last `c`.
  General in the extents.
-/
import Idealize.ShloMosaic.Lib.Pipeline.Value
import Idealize.ShloMosaic.Lib.Pipeline.FrameBody
import Idealize.ShloMosaic.Lib.ValueIdx

noncomputable section

open scoped BigOperators

namespace Cert.Lib.Pieces

open Idealize.ShloMosaic Idealize.ShloMosaic.ValueIdx

variable {α : Type}

/-- Two matrices stacked along axis 0 read, at `(n, j)`, the first at `(n, j)` when `n` is below its height and the
    second at `(n - a, j)` otherwise. -/
theorem concatenate_rows_apply {a c b t : ℕ} (ht : t = a + c) (x : (⟨2, ![a, b]⟩ : Shape).Idx → α)
    (y : (⟨2, ![c, b]⟩ : Shape).Idx → α)
    (h : Shape.Concatenates [⟨2, ![a, b]⟩, ⟨2, ![c, b]⟩] ⟨2, ![t, b]⟩ 0) (n : Fin t) (j : Fin b) :
    concatenate ⟨2, ![t, b]⟩ 0 [⟨⟨2, ![a, b]⟩, x⟩, ⟨⟨2, ![c, b]⟩, y⟩] h (ix2 n j)
      = if hn : n.val < a then x (ix2 ⟨n.val, hn⟩ j) else y (ix2 ⟨n.val - a, by have := n.isLt; omega⟩ j) := by
  by_cases hn : n.val < a
  · rw [dif_pos hn]
    refine concatenate_pair_apply_left (0 : Fin 2) x y h (ix2 n j) rfl (ix2 ⟨n.val, hn⟩ j) fun ax => ?_
    match ax with
    | ⟨0, _⟩ => rfl
    | ⟨1, _⟩ => rfl
  · rw [dif_neg hn]
    refine concatenate_pair_apply_right (0 : Fin 2) x y h (ix2 n j) rfl rfl
      (ix2 ⟨n.val - a, by have := n.isLt; omega⟩ j) (fun ax hax => ?_) ?_
    · match ax with
      | ⟨0, _⟩ => exact absurd rfl hax
      | ⟨1, _⟩ => rfl
    · show n.val - a + a = n.val
      omega

/-- A load of a matrix through the unit-stride rectangle at offsets `(o0, o1)` reads, at `(p, q)`, the matrix at
    `(o0 + p, o1 + q)`. -/
theorem ld_unit_apply₂ {Val : EltTy → Type} {e : EltTy} {A B a b : ℕ} (o0 o1 : ℕ)
    (inb : ∀ ax, (![o0, o1] : Fin 2 → ℕ) ax + (![a, b] : Fin 2 → ℕ) ax ≤ (⟨2, ![A, B]⟩ : Shape).size ax)
    (X : (⟨2, ![A, B]⟩ : Shape).Idx → Val e) (p : Fin a) (q : Fin b) (k0 : Fin A) (k1 : Fin B)
    (h0 : k0.val = o0 + p.val) (h1 : k1.val = o1 + q.val) :
    View.ld (Val := Val) X (Rect.unit (s := ⟨2, ![A, B]⟩) ![o0, o1] ![a, b] inb) (ix2 p q) = X (ix2 k0 k1) := by
  show X ((Rect.unit (s := ⟨2, ![A, B]⟩) ![o0, o1] ![a, b] inb).idx (ix2 p q)) = X (ix2 k0 k1)
  refine congrArg X (funext fun ax => Fin.ext ?_)
  match ax with
  | ⟨0, _⟩ => show o0 + 1 * p.val = k0.val; omega
  | ⟨1, _⟩ => show o1 + 1 * q.val = k1.val; omega

/-- A sum over `b + c` indices is the sum over the first `b` plus the sum over the last `c`. -/
theorem sum_fin_split {M : Type*} [AddCommMonoid M] {b c t : ℕ} (ht : t = b + c) (f : Fin t → M) :
    ∑ k : Fin t, f k
      = (∑ i : Fin b, f ⟨i.val, by have := i.isLt; omega⟩) + ∑ i : Fin c, f ⟨b + i.val, by have := i.isLt; omega⟩ := by
  subst ht
  rw [Fin.sum_univ_add]
  rfl

end Cert.Lib.Pieces

end
-- ==== Proof.LibHostLayout.lean ====
/-
  The host's re-layouts of the weights and biases, read at an element.

  Each weight matrix `W : [H, K]` reaches its kernel transposed, `[K, H]`, and narrowed to bf16 — the identity on extended
  reals —, so its entry `(k, j)` is `W (j, k)`. Each bias `b : [H]` reaches its kernel as a row `[1, H]`, whose entry
  `(0, j)` is `b j`.
-/
import Idealize.ShloMosaic.Lib.Pipeline.Value
import Idealize.ShloMosaic.Lib.ValueIdx
import Idealize.ShloMosaic.PureOps.Ideal

noncomputable section

namespace Cert.Lib.HostLayout

open Idealize.ShloMosaic Idealize.ShloMosaic.ValueIdx

/-- A matrix `[H, K]` transposed to `[K, H]` reads, at `(k, j)`, the entry `(j, k)`. -/
theorem transpose_apply₂ {α : Type} {H K : ℕ} (W : (⟨2, ![H, K]⟩ : Shape).Idx → α)
    (h : (⟨2, ![H, K]⟩ : Shape).Transposes [1, 0] ⟨2, ![K, H]⟩) (k : Fin K) (j : Fin H) :
    transpose ⟨2, ![K, H]⟩ [1, 0] W h (ix2 k j) = W (ix2 j k) :=
  transpose_apply [1, 0] W h (ix2 k j) (ix2 j k) (fun b => match b with
    | ⟨0, _⟩ => rfl
    | ⟨1, _⟩ => rfl)

/-- The transposed matrix narrowed to bf16 reads the same entry: the narrowing is the identity at the ideal instance. -/
theorem truncf_transpose_apply {H K : ℕ} (W : FVec Ideal ⟨2, ![H, K]⟩ .f32)
    (h : (⟨2, ![H, K]⟩ : Shape).Transposes [1, 0] ⟨2, ![K, H]⟩) (ht : FTy.bf16.bits < FTy.f32.bits) (k : Fin K) (j : Fin H) :
    truncf .bf16 (transpose ⟨2, ![K, H]⟩ [1, 0] W h) ht (ix2 k j) = W (ix2 j k) :=
  transpose_apply₂ W h k j

/-- A flat `[b]` array reshaped to a row `[1, b]` reads, at `(u, c)`, the flat entry `c`. -/
theorem shapeCast_row_apply {α : Type} {b : ℕ} (x : (⟨1, ![b]⟩ : Shape).Idx → α)
    (h : (⟨1, ![b]⟩ : Shape).ShapeCasts ⟨2, ![1, b]⟩) (u : Fin 1) (c : Fin b) :
    shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

end Cert.Lib.HostLayout

end
-- ==== Proof.KernelValue.lean ====
/-
  The body's arithmetic, entry by entry, at the exact instance: it is the cell's step.

  Every vector operation of the body is entrywise, except the two matrix products; so at the entry `j` of a block the
  spikes, membrane and refractory results are the step's scalar formulas of the loaded blocks' entries at `j` and of the
  coupling product's entry, and the current result is the decayed current plus the entry of the product of the row
  buffer with the stacked weights. A comparison's bit reaches the arithmetic widened to 32 bits and read as a signed
  integer: that is the bit. A product into a zero accumulator, read at `(p, q)`, is `∑ k, l (p, k) · r (k, q)`. The row
  buffer read back at column `k` is the input block's column `k` below 128 and the spikes block's column `k − 128` from
  128 on (narrowing to bf16 is the identity here), so a sum over its 384 columns is the sum over the first 128 plus
  the sum over the last 256.
-/
import proofs.«127496_j40913858462199_2_alg».proof.Proof.KernelPieces
import proofs.«127496_j40913858462199_2_alg».proof.Proof.LifStep
import proofs.«127496_j40913858462199_2_alg».proof.Proof.LibDense
import proofs.«127496_j40913858462199_2_alg».proof.Proof.LibPieces
import proofs.«127496_j40913858462199_2_alg».proof.Proof.LibHostLayout
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Cert.KernelIdeal.Pieces Idealize.ShloMosaic Idealize.ShloMosaic.ValueIdx Cert.Lif

/-! ## The entrywise results -/

section
variable (x2 x3 x4 : Vec Ideal S1024x256 .f32) (d : FVec Ideal S1024x256 .f32) (j : S1024x256.Idx)

theorem spikes_entry : k0_pay5 (F := Ideal) x2 x4 d (k0_pay11 x2 x3) k0_pay12 j = zNext (x2 j) (x3 j) (d j) (x4 j) := by
  simp only [zNext, spike, decayed, fire, ← toInt_setWidth_bit]
  rfl

theorem membrane_entry : k0_pay4 (F := Ideal) x2 x4 d (k0_pay11 x2 x3) k0_pay12 j = vNext (x2 j) (x3 j) (d j) (x4 j) := by
  simp only [vNext, spike, decayed, fire, ← toInt_setWidth_bit]
  rfl

theorem refractory_entry : k0_pay6 (F := Ideal) x2 x4 d (k0_pay11 x2 x3) k0_pay12 j = rhoNext (x2 j) (x3 j) (d j) (x4 j) := by
  simp only [rhoNext, zNext, spike, decayed, fire, ← toInt_setWidth_bit]
  rfl

end

/-! ## The two products -/

/-- The coupling product at `(p, q)`. -/
theorem coupled_entry (x2 : FVec Ideal S1024x256 .f32) (x5 : FVec Ideal S256x256 .f32) (p : Fin 1024) (q : Fin 256) :
    coupled (F := Ideal) x2 x5 (ix2 p q) = ∑ k : Fin 256, x2 (ix2 p k) * x5 (ix2 k q) := by
  refine (Cert.Lib.Dense.dense_matmul_apply (A := 1024) (K := 256) (B := 256)
    dot_S1024x256_S256x256_S1024x256_1_0_0_1_n_n_wf (some .fp32) x2 (shapeCast S256x256 x5 shapeCasts_S256x256_S256x256) p q).trans ?_
  rw [shapeCast_self]

/-- The current result at `(p, q)`: the decayed current plus the row buffer's product with the stacked weights. -/
theorem current_entry (x3 : FVec Ideal S1024x256 .f32) (xz : FVec Ideal S1024x384 .bf16) (x6 : FVec Ideal S384x256 .bf16)
    (p : Fin 1024) (q : Fin 256) :
    k0_pay10 (F := Ideal) x3 xz x6 (ix2 p q) = iNext (x3 (ix2 p q)) (∑ k : Fin 384, xz (ix2 p k) * x6 (ix2 k q)) := by
  have h := Cert.Lib.Dense.dense_matmul_apply (A := 1024) (K := 384) (B := 256)
    dot_S1024x384_S384x256_S1024x256_1_0_0_1_n_n_wf none xz (shapeCast S384x256 x6 shapeCasts_S384x256_S384x256) p q
  refine (congrArg (fun u => iNext (x3 (ix2 p q)) u) h).trans ?_
  rw [shapeCast_self]

/-! ## The row buffer read back -/

section
variable (x0 : FVec Ideal S1024x128 .f32) (x1 : FVec Ideal S1024x256 .f32) (p : Fin 1024)

/-- A column below 128 is the input block's. -/
theorem joined_left (k : Fin 128) : joined (F := Ideal) x0 x1 (ix2 p ⟨k.val, by omega⟩) = x0 (ix2 p k) := by
  unfold joined
  have e : (Rect.unit (s := S1024x384) ![0, 0] S1024x384.size inb_S1024x384_S1024x384_0_0).toLoadRect.idx (ix2 p (⟨k.val, by omega⟩ : Fin 384))
      = (Rect.unit (s := S1024x384) ![0, 0] S1024x128.size inb_S1024x384_S1024x128_0_0).emb (ix2 p k) :=
    funext fun a => Fin.ext (by
      match a with
      | ⟨0, _⟩ => rfl
      | ⟨1, _⟩ => rfl)
  rw [e, View.canon_cons_of_not_mem, View.canon_cons_emb]
  · unfold k0_pay8
    rw [shapeCast_self]
    rfl
  · rw [Rect.mem_set_unit]
    intro hm
    have h1 := (hm 1).1
    have : (128 : ℕ) ≤ 0 + 1 * k.val := h1
    omega

/-- A column from 128 on is the spikes block's. -/
theorem joined_right (k : Fin 256) : joined (F := Ideal) x0 x1 (ix2 p ⟨128 + k.val, by omega⟩) = x1 (ix2 p k) := by
  unfold joined
  have e : (Rect.unit (s := S1024x384) ![0, 0] S1024x384.size inb_S1024x384_S1024x384_0_0).toLoadRect.idx (ix2 p (⟨128 + k.val, by omega⟩ : Fin 384))
      = (Rect.unit (s := S1024x384) ![0, 128] S1024x256.size inb_S1024x384_S1024x256_0_128).emb (ix2 p k) :=
    funext fun a => Fin.ext (by
      match a with
      | ⟨0, _⟩ => rfl
      | ⟨1, _⟩ => show 0 + 1 * (128 + k.val) = 128 + 1 * k.val; omega)
  rw [e, View.canon_cons_emb]
  unfold k0_pay9
  rw [shapeCast_self]
  rfl

end

/-! ## The stacked weights, as the host lays them out -/

section
variable (wi : FVec Ideal S256x128 .f32) (wr : FVec Ideal S256x256 .f32) (q : Fin 256)

/-- The stacked weights: the input weights transposed (128 rows) above the recurrent weights transposed (256 rows),
    both narrowed to bf16. -/
abbrev stacked : FVec Ideal S384x256 .bf16 :=
  concatenate S384x256 0
    [⟨S128x256, truncf .bf16 (transpose S128x256 [1, 0] wi transposes_S256x128_S128x256_1_0) bitsLt_bf16_f32⟩,
      ⟨S256x256, truncf .bf16 (transpose S256x256 [1, 0] wr transposes_S256x256_S256x256_1_0) bitsLt_bf16_f32⟩]
    concatenates_S128x256_S256x256_S384x256_d0

/-- A row below 128 of the stacked weights is a column of the input weights. -/
theorem stacked_top (k : Fin 128) : stacked wi wr (ix2 ⟨k.val, by omega⟩ q) = wi (ix2 q k) := by
  refine (Cert.Lib.Pieces.concatenate_rows_apply (a := 128) (c := 256) (b := 256) (t := 384) rfl _ _
    concatenates_S128x256_S256x256_S384x256_d0 ⟨k.val, by omega⟩ q).trans ?_
  rw [dif_pos (show (⟨k.val, by omega⟩ : Fin 384).val < 128 from k.isLt)]
  exact Cert.Lib.HostLayout.truncf_transpose_apply wi _ _ k q

/-- A row from 128 on is a column of the recurrent weights. -/
theorem stacked_bottom (k : Fin 256) : stacked wi wr (ix2 ⟨128 + k.val, by omega⟩ q) = wr (ix2 q k) := by
  refine (Cert.Lib.Pieces.concatenate_rows_apply (a := 128) (c := 256) (b := 256) (t := 384) rfl _ _
    concatenates_S128x256_S256x256_S384x256_d0 ⟨128 + k.val, by omega⟩ q).trans ?_
  rw [dif_neg (show ¬(⟨128 + k.val, by omega⟩ : Fin 384).val < 128 from by show ¬128 + k.val < 128; omega)]
  refine (Cert.Lib.HostLayout.truncf_transpose_apply wr _ _ _ q).trans ?_
  exact congrArg (fun u => wr (ix2 q u)) (Fin.ext (by show 128 + k.val - 128 = k.val; omega))

end

/-! ## A block's entry as the step of the whole arrays' entries

The loaded blocks are stated here as variables with their entries given as entries of the whole arrays: row `p` of a
block is row `b` of its array, the coupling weights' block is the transposed array, the stacked weights' block is the
stacked array. -/

section
variable (x0 : FVec Ideal S1024x128 .f32) (x1 x2 x3 x4 : FVec Ideal S1024x256 .f32) (x5 : FVec Ideal S256x256 .f32)
  (x6 : FVec Ideal S384x256 .bf16) (p : Fin 1024) (q : Fin 256)
  (x : (⟨2, ![32768, 128]⟩ : Shape).Idx → EReal) (z v i ρ : (⟨2, ![32768, 256]⟩ : Shape).Idx → EReal)
  (wi : (⟨2, ![256, 128]⟩ : Shape).Idx → EReal) (wr g : (⟨2, ![256, 256]⟩ : Shape).Idx → EReal) (b : Fin 32768)

theorem spikes_at (h2 : ∀ k : Fin 256, x2 (ix2 p k) = v (ix2 b k)) (h3 : x3 (ix2 p q) = i (ix2 b q))
    (h4 : x4 (ix2 p q) = ρ (ix2 b q)) (h5 : ∀ k : Fin 256, x5 (ix2 k q) = g (ix2 q k)) :
    k0_pay5 (F := Ideal) x2 x4 (coupled x2 x5) (leak x2 x3) k0_pay12 (ix2 p q) = zArr v i ρ g (ix2 b q) := by
  rw [spikes_entry, coupled_entry, h2 q, h3, h4]
  simp only [h2, h5]
  rfl

theorem membrane_at (h2 : ∀ k : Fin 256, x2 (ix2 p k) = v (ix2 b k)) (h3 : x3 (ix2 p q) = i (ix2 b q))
    (h4 : x4 (ix2 p q) = ρ (ix2 b q)) (h5 : ∀ k : Fin 256, x5 (ix2 k q) = g (ix2 q k)) :
    k0_pay4 (F := Ideal) x2 x4 (coupled x2 x5) (leak x2 x3) k0_pay12 (ix2 p q) = vArr v i ρ g (ix2 b q) := by
  rw [membrane_entry, coupled_entry, h2 q, h3, h4]
  simp only [h2, h5]
  rfl

theorem refractory_at (h2 : ∀ k : Fin 256, x2 (ix2 p k) = v (ix2 b k)) (h3 : x3 (ix2 p q) = i (ix2 b q))
    (h4 : x4 (ix2 p q) = ρ (ix2 b q)) (h5 : ∀ k : Fin 256, x5 (ix2 k q) = g (ix2 q k)) :
    k0_pay6 (F := Ideal) x2 x4 (coupled x2 x5) (leak x2 x3) k0_pay12 (ix2 p q) = rhoArr v i ρ g (ix2 b q) := by
  rw [refractory_entry, coupled_entry, h2 q, h3, h4]
  simp only [h2, h5]
  rfl

/-- The current: the product over the row buffer's 384 columns is the input's product over 128 plus the spikes' over 256. -/
theorem current_at (h0 : ∀ k : Fin 128, x0 (ix2 p k) = x (ix2 b k)) (h1 : ∀ k : Fin 256, x1 (ix2 p k) = z (ix2 b k))
    (h3 : x3 (ix2 p q) = i (ix2 b q))
    (h6 : ∀ k : Fin 384, x6 (ix2 k q) = stacked wi wr (ix2 k q)) :
    k0_pay10 (F := Ideal) x3 (joined x0 x1) x6 (ix2 p q) = iArr x z i wi wr (ix2 b q) := by
  rw [current_entry, h3, Cert.Lib.Pieces.sum_fin_split (b := 128) (c := 256) rfl]
  simp only [joined_left, joined_right, h0, h1, h6, stacked_top, stacked_bottom]
  rfl

end

end Cert.KernelIdeal.BlockValue

end
-- ==== Proof.KernelArrays.lean ====
/-
  From blocks to arrays: after the run each of the four result arrays is the cell's step of the eight argument arrays.

  The grid has 32 points; at point `t` every row-blocked operand is rows `1024·t … 1024·t + 1023` of its array, the
  coupling weights' block is the whole transposed matrix and the stacked weights' block the whole stacked matrix, both
  written by the host before the launch. So what point `t` writes back to a result array is that block of rows of the
  step's array, and the 32 blocks tile the 32768 rows.
-/
import proofs.«127496_j40913858462199_2_alg».proof.Proof.Gen.KernelIdeal.Value
import proofs.«127496_j40913858462199_2_alg».proof.Proof.KernelValue
import Idealize.ShloMosaic.Lib.StableHlo.Run

set_option maxRecDepth 16384

noncomputable section

open scoped BigOperators

namespace Cert.KernelIdeal.ArrayValue

open Cert.KernelIdeal Cert.KernelIdeal.Gen Cert.KernelIdeal.Pieces Cert.KernelIdeal.BlockValue
open Idealize.ShloMosaic Idealize.ShloMosaic.TcCoe Idealize.SL.Sem Idealize.ShloMosaic.ValueIdx Cert.Lif
open Idealize.ShloMosaic.Pipeline (Dat)

variable (m : (ℓ : Loc nD τ sig) → Buf (Elt Ideal) ℓ) (ρ : Dev nD → PrngReg)

/-! ## The index maps over the grid: row block `t` for the row-blocked operands, block `(0, 0)` for the weights -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## The weights as the region finds them -/

/-- The coupling weights reach the kernel transposed. -/
theorem host_coupling (c : Dev nD) : (V m c main_v0 : S256x256.Idx → EReal)
    = transpose S256x256 [1, 0] (m ((c : Thread nD τ).loc main_arg7)) transposes_S256x256_S256x256_1_0 := by
  dsimp only [Gen.V, Gen.hostOps0]; after_results

/-- The input and recurrent weights reach the kernel transposed, narrowed and stacked. -/
theorem host_stacked (c : Dev nD) : (V m c main_v5 : S384x256.Idx → EReal)
    = stacked (m ((c : Thread nD τ).loc main_arg5)) (m ((c : Thread nD τ).loc main_arg6)) := by
  dsimp only [Gen.V, Gen.hostOps0]; after_results

/-! ## The blocks at point `t` as entries of the arrays -/

/-- Row `p` of the input block is row `1024·t + p` of the input. -/
theorem read_x (c : Dev nD) (t : Fin cfg0.N) (p : Fin 1024) (k : Fin 128) (b : Fin 32768) (hb : b.val = t.val * 1024 + p.val) :
    (iblk m c 0 t : Vec Ideal S1024x128 .f32) (ix2 p k) = (m ((c : Thread nD τ).loc main_arg0) : S32768x128.Idx → EReal) (ix2 b k) := by
  refine Eq.trans ?_ (congrFun (V_main_arg0 m c) (ix2 b k))
  show V m c main_arg0 (((cfg0.win 0).blk t).view.emb (ix2 p k)) = V m c main_arg0 (ix2 b k)
  refine congrArg _ (funext fun a => Fin.ext ?_)
  obtain ⟨e0, e1⟩ := idx0 t
  match a with
  | ⟨0, _⟩ => show win0_0.index t (0 : Fin 2) * 1024 + 1 * p.val = b.val; omega
  | ⟨1, _⟩ => show win0_0.index t (1 : Fin 2) * 128 + 1 * k.val = k.val; omega

/-- Row `p` of the spikes block. -/
theorem read_z (c : Dev nD) (t : Fin cfg0.N) (p : Fin 1024) (k : Fin 256) (b : Fin 32768) (hb : b.val = t.val * 1024 + p.val) :
    (iblk m c 1 t : Vec Ideal S1024x256 .f32) (ix2 p k) = (m ((c : Thread nD τ).loc main_arg1) : S32768x256.Idx → EReal) (ix2 b k) := by
  refine Eq.trans ?_ (congrFun (V_main_arg1 m c) (ix2 b k))
  show V m c main_arg1 (((cfg0.win 1).blk t).view.emb (ix2 p k)) = V m c main_arg1 (ix2 b k)
  refine congrArg _ (funext fun a => Fin.ext ?_)
  obtain ⟨e0, e1⟩ := idx1 t
  match a with
  | ⟨0, _⟩ => show win0_1.index t (0 : Fin 2) * 1024 + 1 * p.val = b.val; omega
  | ⟨1, _⟩ => show win0_1.index t (1 : Fin 2) * 256 + 1 * k.val = k.val; omega

/-- Row `p` of the membrane block. -/
theorem read_v (c : Dev nD) (t : Fin cfg0.N) (p : Fin 1024) (k : Fin 256) (b : Fin 32768) (hb : b.val = t.val * 1024 + p.val) :
    (iblk m c 2 t : Vec Ideal S1024x256 .f32) (ix2 p k) = (m ((c : Thread nD τ).loc main_arg2) : S32768x256.Idx → EReal) (ix2 b k) := by
  refine Eq.trans ?_ (congrFun (V_main_arg2 m c) (ix2 b k))
  show V m c main_arg2 (((cfg0.win 2).blk t).view.emb (ix2 p k)) = V m c main_arg2 (ix2 b k)
  refine congrArg _ (funext fun a => Fin.ext ?_)
  obtain ⟨e0, e1⟩ := idx2 t
  match a with
  | ⟨0, _⟩ => show win0_2.index t (0 : Fin 2) * 1024 + 1 * p.val = b.val; omega
  | ⟨1, _⟩ => show win0_2.index t (1 : Fin 2) * 256 + 1 * k.val = k.val; omega

/-- Row `p` of the current block. -/
theorem read_i (c : Dev nD) (t : Fin cfg0.N) (p : Fin 1024) (k : Fin 256) (b : Fin 32768) (hb : b.val = t.val * 1024 + p.val) :
    (iblk m c 3 t : Vec Ideal S1024x256 .f32) (ix2 p k) = (m ((c : Thread nD τ).loc main_arg3) : S32768x256.Idx → EReal) (ix2 b k) := by
  refine Eq.trans ?_ (congrFun (V_main_arg3 m c) (ix2 b k))
  show V m c main_arg3 (((cfg0.win 3).blk t).view.emb (ix2 p k)) = V m c main_arg3 (ix2 b k)
  refine congrArg _ (funext fun a => Fin.ext ?_)
  obtain ⟨e0, e1⟩ := idx3 t
  match a with
  | ⟨0, _⟩ => show win0_3.index t (0 : Fin 2) * 1024 + 1 * p.val = b.val; omega
  | ⟨1, _⟩ => show win0_3.index t (1 : Fin 2) * 256 + 1 * k.val = k.val; omega

/-- Row `p` of the refractory block. -/
theorem read_rho (c : Dev nD) (t : Fin cfg0.N) (p : Fin 1024) (k : Fin 256) (b : Fin 32768) (hb : b.val = t.val * 1024 + p.val) :
    (iblk m c 4 t : Vec Ideal S1024x256 .f32) (ix2 p k) = (m ((c : Thread nD τ).loc main_arg4) : S32768x256.Idx → EReal) (ix2 b k) := by
  refine Eq.trans ?_ (congrFun (V_main_arg4 m c) (ix2 b k))
  show V m c main_arg4 (((cfg0.win 4).blk t).view.emb (ix2 p k)) = V m c main_arg4 (ix2 b k)
  refine congrArg _ (funext fun a => Fin.ext ?_)
  obtain ⟨e0, e1⟩ := idx4 t
  match a with
  | ⟨0, _⟩ => show win0_4.index t (0 : Fin 2) * 1024 + 1 * p.val = b.val; omega
  | ⟨1, _⟩ => show win0_4.index t (1 : Fin 2) * 256 + 1 * k.val = k.val; omega

/-- The coupling weights' block is the whole transposed matrix. -/
theorem read_gT (c : Dev nD) (t : Fin cfg0.N) (k q : Fin 256) :
    (iblk m c 5 t : Vec Ideal S256x256 .f32) (ix2 k q) = ((m ((c : Thread nD τ).loc main_arg7)) : S256x256.Idx → EReal) (ix2 q k) := by
  refine Eq.trans ?_ ((congrFun (host_coupling m c) (ix2 k q)).trans (Cert.Lib.HostLayout.transpose_apply₂ _ _ k q))
  show V m c main_v0 (((cfg0.win 5).blk t).view.emb (ix2 k q)) = V m c main_v0 (ix2 k q)
  refine congrArg _ (funext fun a => Fin.ext ?_)
  obtain ⟨e0, e1⟩ := idx5 t
  match a with
  | ⟨0, _⟩ => show win0_5.index t (0 : Fin 2) * 256 + 1 * k.val = k.val; omega
  | ⟨1, _⟩ => show win0_5.index t (1 : Fin 2) * 256 + 1 * q.val = q.val; omega

/-- The stacked weights' block is the whole stacked matrix. -/
theorem read_stacked (c : Dev nD) (t : Fin cfg0.N) (k : Fin 384) (q : Fin 256) :
    (iblk m c 6 t : Vec Ideal S384x256 .bf16) (ix2 k q) = stacked (m ((c : Thread nD τ).loc main_arg5)) (m ((c : Thread nD τ).loc main_arg6)) (ix2 k q) := by
  refine Eq.trans ?_ (congrFun (host_stacked m c) (ix2 k q))
  show V m c main_v5 (((cfg0.win 6).blk t).view.emb (ix2 k q)) = V m c main_v5 (ix2 k q)
  refine congrArg _ (funext fun a => Fin.ext ?_)
  obtain ⟨e0, e1⟩ := idx6 t
  match a with
  | ⟨0, _⟩ => show win0_6.index t (0 : Fin 2) * 384 + 1 * k.val = k.val; omega
  | ⟨1, _⟩ => show win0_6.index t (1 : Fin 2) * 256 + 1 * q.val = q.val; omega

/-! ## The emitted spikes (result 0) -/

/-- Point `t` writes back rows `1024·t … 1024·t + 1023` of the step's array. -/
theorem spikes_flushed (c : Dev nD) (t : Fin cfg0.N) :
    (dats m 0 c).flushed 7 t = ((cfg0.win 7).blk t).view.read (Elt Ideal) (zArr (m ((c : Thread nD τ).loc main_arg2)) (m ((c : Thread nD τ).loc main_arg3)) (m ((c : Thread nD τ).loc main_arg4)) (m ((c : Thread nD τ).loc main_arg7))) := by
  rw [Cert.KernelIdeal.Value.flushed7_A m c t,
    spikes_block c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) (iblk m c 0 t) (iblk m c 1 t) (iblk m c 2 t) (iblk m c 3 t) (iblk m c 4 t) (iblk m c 5 t)
      (iblk m c 6 t)]
  funext y
  obtain ⟨p, q, rfl⟩ : ∃ (p : Fin 1024) (q : Fin 256), y = ix2 p q := ⟨y 0, y 1, eq_ix2 y⟩
  have hb : t.val * 1024 + p.val < 32768 := by
    have h : t.val < 32 := lt_of_lt_of_eq t.isLt (N_0 : cfg0.N = 32)
    omega
  have e : ((cfg0.win 7).blk t).view.emb (ix2 p q) = ix2 (⟨t.val * 1024 + p.val, hb⟩ : Fin 32768) q :=
    funext fun a => Fin.ext (by
      obtain ⟨e0, e1⟩ := idx7 t
      match a with
      | ⟨0, _⟩ => show win0_7.index t (0 : Fin 2) * 1024 + 1 * p.val = t.val * 1024 + p.val; omega
      | ⟨1, _⟩ => show win0_7.index t (1 : Fin 2) * 256 + 1 * q.val = q.val; omega)
  show k0_pay5 (F := Ideal) (iblk m c 2 t) (iblk m c 4 t) (coupled (iblk m c 2 t) (iblk m c 5 t)) (leak (iblk m c 2 t) (iblk m c 3 t)) k0_pay12 (ix2 p q) = zArr (m ((c : Thread nD τ).loc main_arg2)) (m ((c : Thread nD τ).loc main_arg3)) (m ((c : Thread nD τ).loc main_arg4)) (m ((c : Thread nD τ).loc main_arg7)) (((cfg0.win 7).blk t).view.emb (ix2 p q))
  rw [e]
  exact spikes_at (iblk m c 2 t) (iblk m c 3 t) (iblk m c 4 t) (iblk m c 5 t) p q _ _ _ _ ⟨t.val * 1024 + p.val, hb⟩
    (fun k => read_v m c t p k _ rfl) (read_i m c t p q _ rfl) (read_rho m c t p q _ rfl) (fun k => read_gT m c t k q)

theorem mem_blk7 (t : Fin cfg0.N) (i : S32768x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v6_0).slice (win0_7.rect t)).set ↔ _
  rw [View.set_slice_whole, Rect.mem_set_unit]
  exact Iff.rfl

/-- Row `r` lies in the block of point `r / 1024`: the blocks tile the array. -/
theorem spikes_cover (i : S32768x256.Idx) : ∃ t : Fin cfg0.N, (cfg0.win 7).flush t = true ∧ i ∈ ((cfg0.win 7).blk t).view.set := by
  have hi0 : (i 0).val < 32768 := (i 0).isLt
  have hi1 : (i 1).val < 256 := (i 1).isLt
  have ht : (i 0).val / 1024 < cfg0.N := by rw [show cfg0.N = 32 from N_0]; omega
  refine ⟨⟨(i 0).val / 1024, ht⟩, flush0_7 _, ?_⟩
  rw [mem_blk7]
  obtain ⟨e0, e1⟩ := idx7 ⟨(i 0).val / 1024, ht⟩
  have e0' : win0_7.index ⟨(i 0).val / 1024, ht⟩ (0 : Fin 2) = (i 0).val / 1024 := e0
  intro a
  match a with
  | ⟨0, _⟩ =>
    show win0_7.index ⟨(i 0).val / 1024, ht⟩ (0 : Fin 2) * 1024 ≤ (i 0).val
      ∧ (i 0).val < win0_7.index ⟨(i 0).val / 1024, ht⟩ (0 : Fin 2) * 1024 + 1024
    omega
  | ⟨1, _⟩ =>
    show win0_7.index ⟨(i 0).val / 1024, ht⟩ (1 : Fin 2) * 256 ≤ (i 1).val
      ∧ (i 1).val < win0_7.index ⟨(i 0).val / 1024, ht⟩ (1 : Fin 2) * 256 + 256
    omega

/-- The whole array after the run. -/
theorem spikes_final (c : Dev nD) : (dats m 0 c).arrAt 7 cfg0.N = zArr (m ((c : Thread nD τ).loc main_arg2)) (m ((c : Thread nD τ).loc main_arg3)) (m ((c : Thread nD τ).loc main_arg4)) (m ((c : Thread nD τ).loc main_arg7)) :=
  (dats m 0 c).arrAt_eq_of_cover 7 (zArr (m ((c : Thread nD τ).loc main_arg2)) (m ((c : Thread nD τ).loc main_arg3)) (m ((c : Thread nD τ).loc main_arg4)) (m ((c : Thread nD τ).loc main_arg7))) (fun t _ => spikes_flushed m c t) spikes_cover

/-! ## The membrane potential (result 1) -/

/-- Point `t` writes back rows `1024·t … 1024·t + 1023` of the step's array. -/
theorem membrane_flushed (c : Dev nD) (t : Fin cfg0.N) :
    (dats m 0 c).flushed 8 t = ((cfg0.win 8).blk t).view.read (Elt Ideal) (vArr (m ((c : Thread nD τ).loc main_arg2)) (m ((c : Thread nD τ).loc main_arg3)) (m ((c : Thread nD τ).loc main_arg4)) (m ((c : Thread nD τ).loc main_arg7))) := by
  rw [Cert.KernelIdeal.Value.flushed8_A m c t,
    membrane_block c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) (iblk m c 0 t) (iblk m c 1 t) (iblk m c 2 t) (iblk m c 3 t) (iblk m c 4 t) (iblk m c 5 t)
      (iblk m c 6 t)]
  funext y
  obtain ⟨p, q, rfl⟩ : ∃ (p : Fin 1024) (q : Fin 256), y = ix2 p q := ⟨y 0, y 1, eq_ix2 y⟩
  have hb : t.val * 1024 + p.val < 32768 := by
    have h : t.val < 32 := lt_of_lt_of_eq t.isLt (N_0 : cfg0.N = 32)
    omega
  have e : ((cfg0.win 8).blk t).view.emb (ix2 p q) = ix2 (⟨t.val * 1024 + p.val, hb⟩ : Fin 32768) q :=
    funext fun a => Fin.ext (by
      obtain ⟨e0, e1⟩ := idx8 t
      match a with
      | ⟨0, _⟩ => show win0_8.index t (0 : Fin 2) * 1024 + 1 * p.val = t.val * 1024 + p.val; omega
      | ⟨1, _⟩ => show win0_8.index t (1 : Fin 2) * 256 + 1 * q.val = q.val; omega)
  show k0_pay4 (F := Ideal) (iblk m c 2 t) (iblk m c 4 t) (coupled (iblk m c 2 t) (iblk m c 5 t)) (leak (iblk m c 2 t) (iblk m c 3 t)) k0_pay12 (ix2 p q) = vArr (m ((c : Thread nD τ).loc main_arg2)) (m ((c : Thread nD τ).loc main_arg3)) (m ((c : Thread nD τ).loc main_arg4)) (m ((c : Thread nD τ).loc main_arg7)) (((cfg0.win 8).blk t).view.emb (ix2 p q))
  rw [e]
  exact membrane_at (iblk m c 2 t) (iblk m c 3 t) (iblk m c 4 t) (iblk m c 5 t) p q _ _ _ _ ⟨t.val * 1024 + p.val, hb⟩
    (fun k => read_v m c t p k _ rfl) (read_i m c t p q _ rfl) (read_rho m c t p q _ rfl) (fun k => read_gT m c t k q)

theorem mem_blk8 (t : Fin cfg0.N) (i : S32768x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v6_1).slice (win0_8.rect t)).set ↔ _
  rw [View.set_slice_whole, Rect.mem_set_unit]
  exact Iff.rfl

/-- Row `r` lies in the block of point `r / 1024`: the blocks tile the array. -/
theorem membrane_cover (i : S32768x256.Idx) : ∃ t : Fin cfg0.N, (cfg0.win 8).flush t = true ∧ i ∈ ((cfg0.win 8).blk t).view.set := by
  have hi0 : (i 0).val < 32768 := (i 0).isLt
  have hi1 : (i 1).val < 256 := (i 1).isLt
  have ht : (i 0).val / 1024 < cfg0.N := by rw [show cfg0.N = 32 from N_0]; omega
  refine ⟨⟨(i 0).val / 1024, ht⟩, flush0_8 _, ?_⟩
  rw [mem_blk8]
  obtain ⟨e0, e1⟩ := idx8 ⟨(i 0).val / 1024, ht⟩
  have e0' : win0_8.index ⟨(i 0).val / 1024, ht⟩ (0 : Fin 2) = (i 0).val / 1024 := e0
  intro a
  match a with
  | ⟨0, _⟩ =>
    show win0_8.index ⟨(i 0).val / 1024, ht⟩ (0 : Fin 2) * 1024 ≤ (i 0).val
      ∧ (i 0).val < win0_8.index ⟨(i 0).val / 1024, ht⟩ (0 : Fin 2) * 1024 + 1024
    omega
  | ⟨1, _⟩ =>
    show win0_8.index ⟨(i 0).val / 1024, ht⟩ (1 : Fin 2) * 256 ≤ (i 1).val
      ∧ (i 1).val < win0_8.index ⟨(i 0).val / 1024, ht⟩ (1 : Fin 2) * 256 + 256
    omega

/-- The whole array after the run. -/
theorem membrane_final (c : Dev nD) : (dats m 0 c).arrAt 8 cfg0.N = vArr (m ((c : Thread nD τ).loc main_arg2)) (m ((c : Thread nD τ).loc main_arg3)) (m ((c : Thread nD τ).loc main_arg4)) (m ((c : Thread nD τ).loc main_arg7)) :=
  (dats m 0 c).arrAt_eq_of_cover 8 (vArr (m ((c : Thread nD τ).loc main_arg2)) (m ((c : Thread nD τ).loc main_arg3)) (m ((c : Thread nD τ).loc main_arg4)) (m ((c : Thread nD τ).loc main_arg7))) (fun t _ => membrane_flushed m c t) membrane_cover

/-! ## The synaptic current (result 2) -/

/-- Point `t` writes back rows `1024·t … 1024·t + 1023` of the step's array. -/
theorem current_flushed (c : Dev nD) (t : Fin cfg0.N) :
    (dats m 0 c).flushed 9 t = ((cfg0.win 9).blk t).view.read (Elt Ideal) (iArr (m ((c : Thread nD τ).loc main_arg0)) (m ((c : Thread nD τ).loc main_arg1)) (m ((c : Thread nD τ).loc main_arg3)) (m ((c : Thread nD τ).loc main_arg5)) (m ((c : Thread nD τ).loc main_arg6))) := by
  rw [Cert.KernelIdeal.Value.flushed9_A m c t,
    current_block c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) (iblk m c 0 t) (iblk m c 1 t) (iblk m c 2 t) (iblk m c 3 t) (iblk m c 4 t) (iblk m c 5 t)
      (iblk m c 6 t)]
  funext y
  obtain ⟨p, q, rfl⟩ : ∃ (p : Fin 1024) (q : Fin 256), y = ix2 p q := ⟨y 0, y 1, eq_ix2 y⟩
  have hb : t.val * 1024 + p.val < 32768 := by
    have h : t.val < 32 := lt_of_lt_of_eq t.isLt (N_0 : cfg0.N = 32)
    omega
  have e : ((cfg0.win 9).blk t).view.emb (ix2 p q) = ix2 (⟨t.val * 1024 + p.val, hb⟩ : Fin 32768) q :=
    funext fun a => Fin.ext (by
      obtain ⟨e0, e1⟩ := idx9 t
      match a with
      | ⟨0, _⟩ => show win0_9.index t (0 : Fin 2) * 1024 + 1 * p.val = t.val * 1024 + p.val; omega
      | ⟨1, _⟩ => show win0_9.index t (1 : Fin 2) * 256 + 1 * q.val = q.val; omega)
  show k0_pay10 (F := Ideal) (iblk m c 3 t) (joined (iblk m c 0 t) (iblk m c 1 t)) (iblk m c 6 t) (ix2 p q) = iArr (m ((c : Thread nD τ).loc main_arg0)) (m ((c : Thread nD τ).loc main_arg1)) (m ((c : Thread nD τ).loc main_arg3)) (m ((c : Thread nD τ).loc main_arg5)) (m ((c : Thread nD τ).loc main_arg6)) (((cfg0.win 9).blk t).view.emb (ix2 p q))
  rw [e]
  exact current_at (iblk m c 0 t) (iblk m c 1 t) (iblk m c 3 t) (iblk m c 6 t) p q _ _ _ _ _ ⟨t.val * 1024 + p.val, hb⟩
    (fun k => read_x m c t p k _ rfl) (fun k => read_z m c t p k _ rfl) (read_i m c t p q _ rfl) (fun k => read_stacked m c t k q)

theorem mem_blk9 (t : Fin cfg0.N) (i : S32768x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v6_2).slice (win0_9.rect t)).set ↔ _
  rw [View.set_slice_whole, Rect.mem_set_unit]
  exact Iff.rfl

/-- Row `r` lies in the block of point `r / 1024`: the blocks tile the array. -/
theorem current_cover (i : S32768x256.Idx) : ∃ t : Fin cfg0.N, (cfg0.win 9).flush t = true ∧ i ∈ ((cfg0.win 9).blk t).view.set := by
  have hi0 : (i 0).val < 32768 := (i 0).isLt
  have hi1 : (i 1).val < 256 := (i 1).isLt
  have ht : (i 0).val / 1024 < cfg0.N := by rw [show cfg0.N = 32 from N_0]; omega
  refine ⟨⟨(i 0).val / 1024, ht⟩, flush0_9 _, ?_⟩
  rw [mem_blk9]
  obtain ⟨e0, e1⟩ := idx9 ⟨(i 0).val / 1024, ht⟩
  have e0' : win0_9.index ⟨(i 0).val / 1024, ht⟩ (0 : Fin 2) = (i 0).val / 1024 := e0
  intro a
  match a with
  | ⟨0, _⟩ =>
    show win0_9.index ⟨(i 0).val / 1024, ht⟩ (0 : Fin 2) * 1024 ≤ (i 0).val
      ∧ (i 0).val < win0_9.index ⟨(i 0).val / 1024, ht⟩ (0 : Fin 2) * 1024 + 1024
    omega
  | ⟨1, _⟩ =>
    show win0_9.index ⟨(i 0).val / 1024, ht⟩ (1 : Fin 2) * 256 ≤ (i 1).val
      ∧ (i 1).val < win0_9.index ⟨(i 0).val / 1024, ht⟩ (1 : Fin 2) * 256 + 256
    omega

/-- The whole array after the run. -/
theorem current_final (c : Dev nD) : (dats m 0 c).arrAt 9 cfg0.N = iArr (m ((c : Thread nD τ).loc main_arg0)) (m ((c : Thread nD τ).loc main_arg1)) (m ((c : Thread nD τ).loc main_arg3)) (m ((c : Thread nD τ).loc main_arg5)) (m ((c : Thread nD τ).loc main_arg6)) :=
  (dats m 0 c).arrAt_eq_of_cover 9 (iArr (m ((c : Thread nD τ).loc main_arg0)) (m ((c : Thread nD τ).loc main_arg1)) (m ((c : Thread nD τ).loc main_arg3)) (m ((c : Thread nD τ).loc main_arg5)) (m ((c : Thread nD τ).loc main_arg6))) (fun t _ => current_flushed m c t) current_cover

/-! ## The refractory counter (result 3) -/

/-- Point `t` writes back rows `1024·t … 1024·t + 1023` of the step's array. -/
theorem refractory_flushed (c : Dev nD) (t : Fin cfg0.N) :
    (dats m 0 c).flushed 10 t = ((cfg0.win 10).blk t).view.read (Elt Ideal) (rhoArr (m ((c : Thread nD τ).loc main_arg2)) (m ((c : Thread nD τ).loc main_arg3)) (m ((c : Thread nD τ).loc main_arg4)) (m ((c : Thread nD τ).loc main_arg7))) := by
  rw [Cert.KernelIdeal.Value.flushed10_A m c t,
    refractory_block c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) (iblk m c 0 t) (iblk m c 1 t) (iblk m c 2 t) (iblk m c 3 t) (iblk m c 4 t) (iblk m c 5 t)
      (iblk m c 6 t)]
  funext y
  obtain ⟨p, q, rfl⟩ : ∃ (p : Fin 1024) (q : Fin 256), y = ix2 p q := ⟨y 0, y 1, eq_ix2 y⟩
  have hb : t.val * 1024 + p.val < 32768 := by
    have h : t.val < 32 := lt_of_lt_of_eq t.isLt (N_0 : cfg0.N = 32)
    omega
  have e : ((cfg0.win 10).blk t).view.emb (ix2 p q) = ix2 (⟨t.val * 1024 + p.val, hb⟩ : Fin 32768) q :=
    funext fun a => Fin.ext (by
      obtain ⟨e0, e1⟩ := idx10 t
      match a with
      | ⟨0, _⟩ => show win0_10.index t (0 : Fin 2) * 1024 + 1 * p.val = t.val * 1024 + p.val; omega
      | ⟨1, _⟩ => show win0_10.index t (1 : Fin 2) * 256 + 1 * q.val = q.val; omega)
  show k0_pay6 (F := Ideal) (iblk m c 2 t) (iblk m c 4 t) (coupled (iblk m c 2 t) (iblk m c 5 t)) (leak (iblk m c 2 t) (iblk m c 3 t)) k0_pay12 (ix2 p q) = rhoArr (m ((c : Thread nD τ).loc main_arg2)) (m ((c : Thread nD τ).loc main_arg3)) (m ((c : Thread nD τ).loc main_arg4)) (m ((c : Thread nD τ).loc main_arg7)) (((cfg0.win 10).blk t).view.emb (ix2 p q))
  rw [e]
  exact refractory_at (iblk m c 2 t) (iblk m c 3 t) (iblk m c 4 t) (iblk m c 5 t) p q _ _ _ _ ⟨t.val * 1024 + p.val, hb⟩
    (fun k => read_v m c t p k _ rfl) (read_i m c t p q _ rfl) (read_rho m c t p q _ rfl) (fun k => read_gT m c t k q)

theorem mem_blk10 (t : Fin cfg0.N) (i : S32768x256.Idx) :
    i ∈ ((cfg0.win 10).blk t).view.set ↔ ∀ a : Fin 2, win0_10.index t a * S1024x256.size a ≤ (i a).val
      ∧ (i a).val < win0_10.index t a * S1024x256.size a + S1024x256.size a := by
  show i ∈ ((View.whole main_v6_3).slice (win0_10.rect t)).set ↔ _
  rw [View.set_slice_whole, Rect.mem_set_unit]
  exact Iff.rfl

/-- Row `r` lies in the block of point `r / 1024`: the blocks tile the array. -/
theorem refractory_cover (i : S32768x256.Idx) : ∃ t : Fin cfg0.N, (cfg0.win 10).flush t = true ∧ i ∈ ((cfg0.win 10).blk t).view.set := by
  have hi0 : (i 0).val < 32768 := (i 0).isLt
  have hi1 : (i 1).val < 256 := (i 1).isLt
  have ht : (i 0).val / 1024 < cfg0.N := by rw [show cfg0.N = 32 from N_0]; omega
  refine ⟨⟨(i 0).val / 1024, ht⟩, flush0_10 _, ?_⟩
  rw [mem_blk10]
  obtain ⟨e0, e1⟩ := idx10 ⟨(i 0).val / 1024, ht⟩
  have e0' : win0_10.index ⟨(i 0).val / 1024, ht⟩ (0 : Fin 2) = (i 0).val / 1024 := e0
  intro a
  match a with
  | ⟨0, _⟩ =>
    show win0_10.index ⟨(i 0).val / 1024, ht⟩ (0 : Fin 2) * 1024 ≤ (i 0).val
      ∧ (i 0).val < win0_10.index ⟨(i 0).val / 1024, ht⟩ (0 : Fin 2) * 1024 + 1024
    omega
  | ⟨1, _⟩ =>
    show win0_10.index ⟨(i 0).val / 1024, ht⟩ (1 : Fin 2) * 256 ≤ (i 1).val
      ∧ (i 1).val < win0_10.index ⟨(i 0).val / 1024, ht⟩ (1 : Fin 2) * 256 + 256
    omega

/-- The whole array after the run. -/
theorem refractory_final (c : Dev nD) : (dats m 0 c).arrAt 10 cfg0.N = rhoArr (m ((c : Thread nD τ).loc main_arg2)) (m ((c : Thread nD τ).loc main_arg3)) (m ((c : Thread nD τ).loc main_arg4)) (m ((c : Thread nD τ).loc main_arg7)) :=
  (dats m 0 c).arrAt_eq_of_cover 10 (rhoArr (m ((c : Thread nD τ).loc main_arg2)) (m ((c : Thread nD τ).loc main_arg3)) (m ((c : Thread nD τ).loc main_arg4)) (m ((c : Thread nD τ).loc main_arg7))) (fun t _ => refractory_flushed m c t) refractory_cover

/-! ## The run, read -/

/-- Every weakly fair execution of the kernel's program ends with the four result arrays at the step of the argument
    arrays, and the arguments unchanged. -/
theorem run : θ_run defs (onTc (τ := τ) (main (F := Ideal))) ⟨m, fun _ => 0, ρ⟩ fun r => ∀ c : Dev nD,
      r.2.mem ((c : Thread nD τ).loc main_v6_0) = zArr (m ((c : Thread nD τ).loc main_arg2)) (m ((c : Thread nD τ).loc main_arg3)) (m ((c : Thread nD τ).loc main_arg4)) (m ((c : Thread nD τ).loc main_arg7))
      ∧ r.2.mem ((c : Thread nD τ).loc main_v6_1) = vArr (m ((c : Thread nD τ).loc main_arg2)) (m ((c : Thread nD τ).loc main_arg3)) (m ((c : Thread nD τ).loc main_arg4)) (m ((c : Thread nD τ).loc main_arg7))
      ∧ r.2.mem ((c : Thread nD τ).loc main_v6_2) = iArr (m ((c : Thread nD τ).loc main_arg0)) (m ((c : Thread nD τ).loc main_arg1)) (m ((c : Thread nD τ).loc main_arg3)) (m ((c : Thread nD τ).loc main_arg5)) (m ((c : Thread nD τ).loc main_arg6))
      ∧ r.2.mem ((c : Thread nD τ).loc main_v6_3) = rhoArr (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (spikes_final m c), (h c).2.1.trans (membrane_final m c),
      (h c).2.2.1.trans (current_final m c), (h c).2.2.2.1.trans (refractory_final m c), (h c).2.2.2.2⟩)
    (Cert.KernelIdeal.Value.run_blocks m ρ)

end Cert.KernelIdeal.ArrayValue

end
-- ==== Proof.lean ====
/-
  A leaky integrate-and-fire step with a refractory counter: the kernel against its reference, on the extended reals.

  Both programs compute, for every batch row `b` and unit `h`, the same four numbers from the membrane potential `v`, the
  synaptic current `i`, the refractory counter `ρ`, the previous spikes `z`, the input `x` and three weight matrices
  (Proof/LifStep.lean): the emitted spike, the new membrane potential, the new current and the new counter. The
  reference does it with whole-array operations and three products against transposed weights
  (Proof/RefLif.lean). The kernel walks 32 blocks of 1024 rows; per block it forms the coupling product
  `v · gᵀ` directly and the drive `x · wᵢᵀ + z · wᵣᵀ` as ONE product of the row buffer `[x | z]` (384 columns) with the
  stacked weights `[wᵢᵀ ; wᵣᵀ]` (Proof/KernelPieces.lean, Proof/KernelValue.lean, Proof/KernelArrays.lean).
  The two differ in two places only: a sum over 384 columns against the sum over the first 128 plus the sum over the
  last 256, and `(i' + A) + B` against `i' + (A + B)`. Both are laws of addition that hold for every extended real, so
  the finiteness of the inputs is never used. The idealization rewrote nothing, so `preserves` is trivial; the frames
  are the generated ones, and the reference's frame is its generated run with the results dropped.
-/
import proofs.«127496_j40913858462199_2_alg».proof.Defs
import proofs.«127496_j40913858462199_2_alg».proof.Proof.Gen.Kernel
import proofs.«127496_j40913858462199_2_alg».proof.Proof.Gen.Kernel.Skeleton
import proofs.«127496_j40913858462199_2_alg».proof.Proof.Gen.Kernel.Launch
import proofs.«127496_j40913858462199_2_alg».proof.Proof.Gen.Kernel.Points
import proofs.«127496_j40913858462199_2_alg».proof.Proof.Gen.Kernel.Frame
import proofs.«127496_j40913858462199_2_alg».proof.Proof.Gen.KernelIdeal
import proofs.«127496_j40913858462199_2_alg».proof.Proof.Gen.KernelIdeal.Skeleton
import proofs.«127496_j40913858462199_2_alg».proof.Proof.Gen.KernelIdeal.Launch
import proofs.«127496_j40913858462199_2_alg».proof.Proof.Gen.KernelIdeal.Points
import proofs.«127496_j40913858462199_2_alg».proof.Proof.Gen.KernelIdeal.Frame
import proofs.«127496_j40913858462199_2_alg».proof.Proof.Gen.KernelIdeal.Value
import proofs.«127496_j40913858462199_2_alg».proof.Proof.Gen.ReferenceIdeal
import proofs.«127496_j40913858462199_2_alg».proof.Proof.Gen.ReferenceIdeal.Run
import proofs.«127496_j40913858462199_2_alg».proof.Proof.Gen.ReferenceIdeal.Read
import proofs.«127496_j40913858462199_2_alg».proof.Proof.Gen.Pre_finite_inputs
import proofs.«127496_j40913858462199_2_alg».proof.Proof.RefLif
import proofs.«127496_j40913858462199_2_alg».proof.Proof.KernelArrays
import Idealize.ShloMosaic.Adequacy
import Idealize.ShloMosaic.Init

noncomputable section

namespace Cert.Proof

open Idealize.ShloMosaic Idealize.SL.Sem Cert.Lif

theorem frame_kernel : Cert.frame_Kernel := fun m ρ _ => Cert.Kernel.Gen.frame m ρ

theorem frame_ideal : Cert.frame_KernelIdeal := fun m ρ _ => Cert.KernelIdeal.Gen.frame m ρ

/-- The reference's run, its four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both programs end with the four result arrays at the step of the argument arrays, which agree. -/
theorem algebraic : Cert.algebraic_KernelIdeal_ReferenceIdeal := by
  intro m ρ m' ρ' _ hagree
  refine ⟨_, _, _, _, Cert.KernelIdeal.ArrayValue.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [Cert.ReferenceIdeal.Read.val_main_v39_eq, Cert.ReferenceIdeal.RefValue.spikes_eq, a2, a3, a4, a7]
  · rw [Cert.ReferenceIdeal.Read.val_main_v36_eq, Cert.ReferenceIdeal.RefValue.membrane_eq, a2, a3, a4, a7]
  · rw [Cert.ReferenceIdeal.Read.val_main_v28_eq, Cert.ReferenceIdeal.RefValue.current_eq, a0, a1, a3, a5, a6]
  · rw [Cert.ReferenceIdeal.Read.val_main_v47_eq, Cert.ReferenceIdeal.RefValue.refractory_eq, a2, a3, a4, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
